-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S512x2048 : Shape := ⟨2, ![512, 2048]⟩

abbrev nBuf : Space → Nat
  | .hbm => 14
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .i1⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x2048 : S_.BroadcastsInDim S2048x2048 (![] : Fin 0 → Fin S2048x2048.rank)
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .i1⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.KernelPayload.lean ====
/-
  What the kernel's body computes for one block, read at an entry.

  The body holds 512 rows of the input, the whole binarised weight and the bias as one row. It multiplies the
  input block against the weight, both contracted along their second axis, into a zero accumulator, and adds
  the bias row broadcast down the 512 rows. At the ideal instance the change of float format is the identity,
  the product into a zero accumulator is the plain sum of products over the contracted axis, and a shape cast to
  the same shape is the identity. So the entry at (p, q) is

      (∑ k < 2048, x[p, k] · v[q, k]) + b[0, q].
-/
import proofs.«177648_j67156108640875_2_alg».proof.Proof.Gen.KernelIdeal
import proofs.«177648_j67156108640875_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.BinLin.Kernel

open Cert.KernelIdeal Cert.KernelIdeal.Gen Idealize.ShloMosaic Idealize.ShloMosaic.ValueIdx

/-! ## The operand indices of the block product -/

/-- The left operand is read at the output's row … -/
theorem lhs_row (j : S512x2048.Idx) (k : dot_S512x2048_S2048x2048_S512x2048_1_1_0_0_n_n.contr.Idx) :
    (dot_S512x2048_S2048x2048_S512x2048_1_1_0_0_n_n.lhsIdx j k 0).val = (j 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl
/-- … and the contraction index, -/
theorem lhs_contr (j : S512x2048.Idx) (k : dot_S512x2048_S2048x2048_S512x2048_1_1_0_0_n_n.contr.Idx) :
    (dot_S512x2048_S2048x2048_S512x2048_1_1_0_0_n_n.lhsIdx j k 1).val = (k ⟨0, by decide⟩).val :=
  dot_S512x2048_S2048x2048_S512x2048_1_1_0_0_n_n.lhsIdx_val_of_single rfl j k
/-- the right operand at the output's COLUMN as its row … -/
theorem rhs_row (j : S512x2048.Idx) (k : dot_S512x2048_S2048x2048_S512x2048_1_1_0_0_n_n.contr.Idx) :
    (dot_S512x2048_S2048x2048_S512x2048_1_1_0_0_n_n.rhsIdx j k 0).val = (j 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl
/-- … and the contraction index. -/
theorem rhs_contr (j : S512x2048.Idx) (k : dot_S512x2048_S2048x2048_S512x2048_1_1_0_0_n_n.contr.Idx) :
    (dot_S512x2048_S2048x2048_S512x2048_1_1_0_0_n_n.rhsIdx j k 1).val = (k ⟨0, by decide⟩).val :=
  dot_S512x2048_S2048x2048_S512x2048_1_1_0_0_n_n.rhsIdx_val_of_single rfl j k

/-! ## The block product at an entry -/

/-- The product of a [512, 2048] block and a [2048, 2048] matrix, both contracted along their second axis, into the
    zero accumulator: at (p, q) the sum over `k` of left (p, k) times right (q, k). -/
theorem product_apply (l : FVec Ideal S512x2048 .bf16) (r : FVec Ideal S2048x2048 .bf16) (p : Fin 512) (q : Fin 2048) :
    matmul (F := Ideal) dot_S512x2048_S2048x2048_S512x2048_1_1_0_0_n_n none l r (constant (F := Ideal) S512x2048 .f32 0x00000000#32) (ix2 p q)
      = ∑ k : Fin 2048, l (ix2 p k) * r (ix2 q k) := by
  refine (Ideal.matmul_constant_zero_apply dot_S512x2048_S2048x2048_S512x2048_1_1_0_0_n_n none l r (ix2 p q)).trans ?_
  rw [← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k :=
    funext fun a => Fin.ext (by
      match a with
      | ⟨0, _⟩ => exact lhs_row _ _
      | ⟨1, _⟩ => exact (lhs_contr _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k :=
    funext fun a => Fin.ext (by
      match a with
      | ⟨0, _⟩ => exact rhs_row _ _
      | ⟨1, _⟩ => exact (rhs_contr _ _).trans hk)
  rw [el, er]

/-! ## The payload at an entry -/

/-- The body's stored value at (p, q): the block product there plus the bias row at `q`. -/
theorem payload_apply (x : Vec Ideal S512x2048 .f32) (v : Vec Ideal S2048x2048 .bf16) (b : Vec Ideal S1x2048 .f32)
    (p : Fin 512) (q : Fin 2048) :
    k0_pay1 (F := Ideal) x v b (ix2 p q) = (∑ k : Fin 2048, x (ix2 p k) * v (ix2 q k)) + b (ix2 (0 : Fin 1) q) := by
  unfold k0_pay1
  refine (congrArg₂ (· + ·)
    (product_apply (truncf .bf16 x bitsLt_bf16_f32) (shapeCast S2048x2048 v shapeCasts_S2048x2048_S2048x2048) p q)
    (broadcastTo_1b_ab_apply (shapeCast S1x2048 b shapeCasts_S1x2048_S1x2048) broadcasts_S1x2048_S512x2048 p q)).trans ?_
  rw [shapeCast_self, shapeCast_self]
  rfl

end Cert.BinLin.Kernel

end
-- ==== Proof.Spec.lean ====
/-
  The specification of the binarised linear layer at the ideal instance, over literal shapes.

  For an input `x : [8192, 2048]`, a weight `w : [2048, 2048]` and a bias `b : [2048]` the layer's output at
  row `r` and column `c` is

      (∑ k < 2048, x[r, k] · β(w[c, k])) + b[c],

  where `β(w)` is the binarised weight entry: the value of the word `1.0` where `0 ≤ w` and the value of the
  word `−1.0` elsewhere. Both words are kept as words: they are the same on the two sides of the
  certificate, so their values are never needed.

  One program forms the binarised weight directly, the other as `w + (β(w) − w)`. On the extended reals
  `w + (s − w) = s` holds for every `s` as soon as `w` is a real number (at `w = ±∞` it fails: `∞ + (s − ∞)` is `−∞`),
  which is why the weight's finiteness is used and nothing else's.
-/
import Idealize.ShloMosaic.PureOps.Ideal
import Idealize.ShloMosaic.PureOps.Ideal.Laws
import Idealize.ShloMosaic.Lib.ValueIdx

noncomputable section

namespace Cert.BinLin

open Idealize.ShloMosaic Idealize.ShloMosaic.ValueIdx

/-- The input's shape, the weight's and the bias's. -/
abbrev SX : Shape := ⟨2, ![8192, 2048]⟩
abbrev SW : Shape := ⟨2, ![2048, 2048]⟩
abbrev SB : Shape := ⟨1, ![2048]⟩

/-- The binarised weight entry `β(w)`: the word `1.0` where `0 ≤ w`, the word `−1.0` elsewhere. -/
def binarise (w : EReal) : EReal :=
  Scalar.select (FloatOps.cmpf (F := Ideal) (φ := .f32) .oge w (FloatOps.ofBits (F := Ideal) .f32 0x00000000#32))
    (FloatOps.ofBits (F := Ideal) .f32 0x3F800000#32) (FloatOps.ofBits (F := Ideal) .f32 0xBF800000#32)

/-- The layer's output: row `r` of the input against row `c` of the binarised weight, plus the bias at `c`. -/
def out (x : SX.Idx → EReal) (w : SW.Idx → EReal) (b : SB.Idx → EReal) : SX.Idx → EReal :=
  fun i => (∑ k : Fin 2048, x (ix2 (i 0) k) * binarise (w (ix2 (i 1) k))) + b (ix1 (i 1))

/-- A real number `w` added to `s − w` is `s`, for every extended real `s`: for a real `s` this is the
    identity of the reals, and an infinite `s` absorbs the real `w` twice. -/
theorem add_sub_self_of_real (w s : EReal) (hw : w ≠ ⊤) (hw' : w ≠ ⊥) : w + (s - w) = s := by
  lift w to ℝ using ⟨hw, hw'⟩
  induction s using EReal.rec with
  | bot => simp
  | top => simp
  | coe s => norm_cast; ring

end Cert.BinLin

end
-- ==== Proof.HostPrefix.lean ====
/-
  What the region finds in the two arrays the host writes before it.

  Before the region the host binarises the weight — compares it with zero, selects between the splats of the
  words `1.0` and `−1.0`, changes the float format — and reshapes the bias to one row. The weight window stages
  the first array and the bias window the second. Read at an entry at the ideal instance, where a change of
  format is the identity: the first array at (q, k) is the binarised weight entry `β(w[q, k])`, the second at
  (0, q) is the bias at `q`.
-/
import proofs.«177648_j67156108640875_2_alg».proof.Proof.Gen.KernelIdeal.Frame
import proofs.«177648_j67156108640875_2_alg».proof.Proof.Spec
import Idealize.ShloMosaic.Lib.StableHlo.Run
import Idealize.ShloMosaic.Lib.Pipeline.Value
import Idealize.ShloMosaic.Lib.ValueIdx

noncomputable section

namespace Cert.BinLin.Kernel

open Cert.KernelIdeal Cert.KernelIdeal.Gen Idealize.ShloMosaic Idealize.ShloMosaic.TcCoe Idealize.SL.Sem
open Idealize.ShloMosaic.StableHlo Idealize.ShloMosaic.ValueIdx Cert.BinLin

variable {F : FTy → Type} [FloatOps F]
variable (m : (ℓ : Loc nD τ sig) → Buf (Elt F) ℓ)

/-- The array the weight window stages: the host's comparison, selection and change of format of the weight argument. -/
theorem weight_array (c : Dev nD) :
    (V m c main_v3 : S2048x2048.Idx → Elt F .bf16)
      = truncf .bf16 (select (cmpf .oge (m ((c : Thread nD τ).loc main_arg1))
            (broadcastInDim S2048x2048 ![] bcast_S_S2048x2048 (constant (F := F) S_ .f32 0x00000000#32)))
          (broadcastInDim S2048x2048 ![] bcast_S_S2048x2048 (constant (F := F) S_ .f32 0x3F800000#32))
          (broadcastInDim S2048x2048 ![] bcast_S_S2048x2048 (constant (F := F) S_ .f32 0xBF800000#32))) bitsLt_bf16_f32 := by
  dsimp only [V]
  simp only [hostOps0, hostOps0_1, hostOps0_2, List.flatten_cons, List.flatten_nil, List.append_nil, List.cons_append,
    List.nil_append]
  after_results
  rfl

/-- The array the bias window stages: the bias argument reshaped to one row. -/
theorem bias_array (c : Dev nD) :
    (V m c main_v4 : S1x2048.Idx → Elt F .f32)
      = shapeCast S1x2048 (m ((c : Thread nD τ).loc main_arg2)) shapeCasts_S2048_S1x2048 := by
  dsimp only [V]
  simp only [hostOps0, hostOps0_1, hostOps0_2, List.flatten_cons, List.flatten_nil, List.append_nil, List.cons_append,
    List.nil_append]
  after_results
  rfl

/-- At the ideal instance the staged weight array at (q, k) is the binarised weight entry. -/
theorem weight_array_apply (m : (ℓ : Loc nD τ sig) → Buf (Elt Ideal) ℓ) (c : Dev nD) (q k : Fin 2048) :
    (V m c main_v3 : S2048x2048.Idx → EReal) (ix2 q k)
      = binarise ((m ((c : Thread nD τ).loc main_arg1) : S2048x2048.Idx → EReal) (ix2 q k)) := by
  rw [weight_array m c]
  rfl

/-- The staged bias row at (0, q) is the bias at `q`. -/
theorem bias_array_apply (c : Dev nD) (q : Fin 2048) :
    (V m c main_v4 : S1x2048.Idx → Elt F .f32) (ix2 (0 : Fin 1) q)
      = (m ((c : Thread nD τ).loc main_arg2) : S2048.Idx → Elt F .f32) (ix1 q) := by
  rw [bias_array m c]
  refine shapeCast_apply _ shapeCasts_S2048_S1x2048 (ix2 (0 : Fin 1) q) (ix1 q) ?_
  rw [Shape.rowMajor_val_one, Shape.rowMajor_val_two]
  show q.val = 0 * 2048 + q.val
  omega

end Cert.BinLin.Kernel

end
-- ==== Proof.KernelValue.lean ====
/-
  The kernel's output array is the specification of its arguments.

  The grid has 16 points. Point `t` is handed rows `512·t … 512·t + 511` of the input as a block, the whole
  binarised weight and the whole bias row, and writes rows `512·t … 512·t + 511` of the output. The entry it
  writes at (p, q) is the body's payload there, which is row `512·t + p` of the input against row `q` of the
  binarised weight, plus the bias at `q`: the specification at (512·t + p, q). The 16 row blocks cover the
  output array, row `r` lying in the block of point `r / 512`, so the array ends as the specification.
-/
import proofs.«177648_j67156108640875_2_alg».proof.Proof.Gen.KernelIdeal.Value
import proofs.«177648_j67156108640875_2_alg».proof.Proof.KernelPayload
import proofs.«177648_j67156108640875_2_alg».proof.Proof.HostPrefix
import proofs.«177648_j67156108640875_2_alg».proof.Proof.Spec
import Idealize.ShloMosaic.Lib.Pipeline.Value
import Idealize.ShloMosaic.Lib.ValueIdx

noncomputable section

namespace Cert.BinLin.Kernel

open Cert.KernelIdeal Cert.KernelIdeal.Gen Idealize.ShloMosaic Idealize.ShloMosaic.TcCoe Idealize.SL.Sem
open Idealize.ShloMosaic.Pipeline (Dat)
open Idealize.ShloMosaic.ValueIdx Cert.BinLin

/-! ## One entry of one block, over plain variables -/

/-- If a block `x0` holds row `r` of `X` in its row `p`, `x1` the binarised `W` and `x2` the bias `B` as a row, the
    payload at (p, q) is the specification of `X`, `W`, `B` at (r, q). -/
theorem block_value (x0 : Vec Ideal S512x2048 .f32) (x1 : Vec Ideal S2048x2048 .bf16) (x2 : Vec Ideal S1x2048 .f32)
    (X : SX.Idx → EReal) (W : SW.Idx → EReal) (B : SB.Idx → EReal) (p : Fin 512) (q : Fin 2048) (r : Fin 8192)
    (h0 : ∀ k : Fin 2048, x0 (ix2 p k) = X (ix2 r k))
    (h1 : ∀ k : Fin 2048, x1 (ix2 q k) = binarise (W (ix2 q k)))
    (h2 : x2 (ix2 (0 : Fin 1) q) = B (ix1 q)) :
    k0_pay1 (F := Ideal) x0 x1 x2 (ix2 p q) = out X W B (ix2 r q) := by
  rw [payload_apply, h2]
  show _ = (∑ k : Fin 2048, X (ix2 r k) * binarise (W (ix2 q k))) + B (ix1 q)
  refine congrArg (· + B (ix1 q)) (Finset.sum_congr rfl fun k _ => ?_)
  rw [h0, h1]

/-! ## The windows' blocks -/

theorem hz : (![0, 0] : Fin 2 → Nat) = fun _ => 0 := funext fun a => by fin_cases a <;> rfl

/-- The printed index maps over the 16 grid points: the input's and the output's blocks are row block `t`, the
    weight's and the bias's the one block there is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt (N_0 : cfg0.N = 16)

section Blocks

variable {F : FTy → Type} [FloatOps F]
variable (m : (ℓ : Loc nD τ sig) → Buf (Elt F) ℓ)

/-- The input window's block at point `t`, row `p`, is row `512·t + p` of the input argument. -/
theorem input_block_apply (c : Dev nD) (t : Fin cfg0.N) (p : Fin 512) (k : Fin 2048) (r : Fin 8192)
    (hr : r.val = t.val * 512 + p.val) :
    (iblk m c 0 t : Vec F S512x2048 .f32) (ix2 p k)
      = (m ((c : Thread nD τ).loc main_arg0) : S8192x2048.Idx → Elt F .f32) (ix2 r k) := by
  obtain ⟨e0, e1, -⟩ := idx_facts t
  unfold iblk
  rw [View.read_apply]
  show V m c main_arg0 _ = _
  rw [V_main_arg0 m c]
  refine congrArg (m ((c : Thread nD τ).loc main_arg0) : S8192x2048.Idx → Elt F .f32) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The weight window's block at any point is the whole array the host binarised. -/
theorem weight_block_apply (c : Dev nD) (t : Fin cfg0.N) (q k : Fin 2048) :
    (iblk m c 1 t : Vec F S2048x2048 .bf16) (ix2 q k) = (V m c main_v3 : S2048x2048.Idx → Elt F .bf16) (ix2 q k) := by
  obtain ⟨-, -, e2, e3, -⟩ := idx_facts t
  unfold iblk
  rw [View.read_apply]
  show V m c main_v3 _ = _
  refine congrArg (V m c main_v3 : S2048x2048.Idx → Elt F .bf16) (funext fun a => Fin.ext ?_)
  match a with
  | ⟨0, _⟩ => show win0_1.index t (0 : Fin 2) * 2048 + 1 * q.val = q.val; rw [e2]; omega
  | ⟨1, _⟩ => show win0_1.index t (1 : Fin 2) * 2048 + 1 * k.val = k.val; rw [e3]; omega

/-- The bias window's block at any point is the whole one-row array the host reshaped. -/
theorem bias_block_apply (c : Dev nD) (t : Fin cfg0.N) (q : Fin 2048) :
    (iblk m c 2 t : Vec F S1x2048 .f32) (ix2 (0 : Fin 1) q) = (V m c main_v4 : S1x2048.Idx → Elt F .f32) (ix2 (0 : Fin 1) q) := by
  obtain ⟨-, -, -, -, e4, e5, -⟩ := idx_facts t
  unfold iblk
  rw [View.read_apply]
  show V m c main_v4 _ = _
  refine congrArg (V m c main_v4 : S1x2048.Idx → Elt F .f32) (funext fun a => Fin.ext ?_)
  match a with
  | ⟨0, _⟩ => show win0_2.index t (0 : Fin 2) * 1 + 1 * 0 = 0; rw [e4]
  | ⟨1, _⟩ => show win0_2.index t (1 : Fin 2) * 2048 + 1 * q.val = q.val; rw [e5]; omega

/-- The output window's block at point `t`, entry (p, q), sits at (512·t + p, q) of the output array. -/
theorem output_block_index (t : Fin cfg0.N) (p : Fin 512) (q : Fin 2048) (r : Fin 8192) (hr : r.val = t.val * 512 + p.val) :
    (((cfg0.win 3).blk t).view.emb (ix2 p q) : S8192x2048.Idx) = ix2 r q := by
  obtain ⟨-, -, -, -, -, -, e6, e7⟩ := idx_facts t
  refine funext fun a => Fin.ext ?_
  match a with
  | ⟨0, _⟩ => show win0_3.index t (0 : Fin 2) * 512 + 1 * p.val = r.val; rw [e6, hr]; omega
  | ⟨1, _⟩ => show win0_3.index t (1 : Fin 2) * 2048 + 1 * q.val = q.val; rw [e7]; omega

end Blocks

/-! ## What a point writes back, the cover, and the run -/

variable (m : (ℓ : Loc nD τ sig) → Buf (Elt Ideal) ℓ) (ρ : Dev nD → PrngReg)

/-- The specification of the three argument arrays as launched. -/
abbrev result (c : Dev nD) : S8192x2048.Idx → EReal :=
  out (m ((c : Thread nD τ).loc main_arg0)) (m ((c : Thread nD τ).loc main_arg1)) (m ((c : Thread nD τ).loc main_arg2))

/-- What point `t` writes back is block `t` of the specification. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S512x2048) hz, View.ld_unit_zero (S := S2048x2048) hz, View.ld_unit_zero (S := S1x2048) hz]
  funext j
  obtain ⟨p, q, rfl⟩ : ∃ (p : Fin 512) (q : Fin 2048), j = ix2 p q := ⟨j 0, j 1, eq_ix2 j⟩
  have ht := point_lt t
  have hr : (⟨t.val * 512 + p.val, by have := p.isLt; omega⟩ : Fin 8192).val = t.val * 512 + p.val := rfl
  show k0_pay1 (F := Ideal) (iblk m c 0 t) (iblk m c 1 t) (iblk m c 2 t) (ix2 p q)
    = result m c (((cfg0.win 3).blk t).view.emb (ix2 p q))
  rw [output_block_index t p q _ hr]
  refine block_value (iblk m c 0 t) (iblk m c 1 t) (iblk m c 2 t) _ _ _ p q _ (fun k => ?_) (fun k => ?_) ?_
  · exact input_block_apply m c t p k _ hr
  · exact (weight_block_apply m c t q k).trans (weight_array_apply m c q k)
  · exact (bias_block_apply m c t q).trans (bias_array_apply m c q)

/-- An index of the output array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v5).slice (win0_3.rect t)).set ↔ _
  rw [View.set_slice_whole, Rect.mem_set_unit]
  exact Iff.rfl

/-- Every index of the output array is in the block of the point its row selects, and every point writes back. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  have hlt : (i 0).val / 512 < cfg0.N := by rw [hN]; omega
  obtain ⟨-, -, -, -, -, -, e6, e7⟩ := idx_facts ⟨(i 0).val / 512, hlt⟩
  refine ⟨⟨(i 0).val / 512, hlt⟩, flush0_3 _, ?_⟩
  rw [mem_blk]
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    rw [e6]
    show (i 0).val / 512 * 512 ≤ (i 0).val ∧ (i 0).val < (i 0).val / 512 * 512 + 512
    omega
  | ⟨1, _⟩ =>
    show win0_3.index ⟨(i 0).val / 512, hlt⟩ (1 : Fin 2) * 2048 ≤ (i 1).val ∧ (i 1).val < win0_3.index ⟨(i 0).val / 512, hlt⟩ (1 : Fin 2) * 2048 + 2048
    rw [e7]
    omega

/-- The output array after the run is the specification of the arguments. -/
theorem final (c : Dev nD) : (dats m 0 c).arrAt 3 cfg0.N = result m c :=
  (dats m 0 c).arrAt_eq_of_cover 3 (result m c) (fun t _ => flushed_eq m c t) cover

/-- The kernel's run: every weakly fair execution ends with the output array at the specification of the
    arguments, and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.BinLin.Kernel

end
-- ==== Proof.ReferenceValue.lean ====
/-
  The reference computes the specification.

  The reference forms the straight-through weight `w + (β(w) − w)` entry by entry, contracts the input's rows
  against its rows, and adds the bias broadcast along the rows. Entry by entry the straight-through weight is
  `β(w)` when `w` is a real number (`Cert.BinLin.add_sub_self_of_real`), so the contraction's terms are the
  specification's, and the two broadcasts of the bias read it at the column.
-/
import proofs.«177648_j67156108640875_2_alg».proof.Proof.Gen.ReferenceIdeal.Read
import proofs.«177648_j67156108640875_2_alg».proof.Proof.Spec

noncomputable section

namespace Cert.BinLin.Reference

open Cert.ReferenceIdeal Cert.ReferenceIdeal.Read Idealize.ShloMosaic Idealize.ShloMosaic.ValueIdx Cert.BinLin

/-- The straight-through weight at an entry where the weight is a real number is the binarised entry. -/
theorem straight_through_apply (w : S2048x2048.Idx → EReal) (j : S2048x2048.Idx) (hj : w j ≠ ⊤) (hj' : w j ≠ ⊥) :
    val_main_v5 (F := Ideal) w j = binarise (w j) := by
  rw [val_main_v5_apply, val_main_v4_apply, val_main_v3_apply, val_main_v2_apply, val_main_v1_apply, val_main_v0_apply,
    val_main_cst_apply, val_main_call0_v0_apply, val_main_cst_0_apply, val_main_call0_v1_apply, val_main_cst_1_apply]
  exact add_sub_self_of_real (w j) (binarise (w j)) hj hj'

/-- The contraction reads the input at (row, k) and the weight at (column, k). -/
theorem lhs_index (i : S8192x2048.Idx) (k : Fin 2048) : lidx_main_v6 i k = ix2 (i 0) k :=
  funext fun a => by match a with | ⟨0, _⟩ => rfl | ⟨1, _⟩ => rfl
theorem rhs_index (i : S8192x2048.Idx) (k : Fin 2048) : ridx_main_v6 i k = ix2 (i 1) k :=
  funext fun a => by match a with | ⟨0, _⟩ => rfl | ⟨1, _⟩ => rfl
/-- The bias, broadcast to one row and then along the rows, is read at the column. -/
theorem bias_index (i : S8192x2048.Idx) : idx_main_v7 (idx_main_v8 i) = ix1 (i 1) :=
  funext fun a => by match a with | ⟨0, _⟩ => rfl

/-- The reference's result is the specification of its three arguments, when every weight entry is a real number. -/
theorem result_eq (x : S8192x2048.Idx → EReal) (w : S2048x2048.Idx → EReal) (b : S2048.Idx → EReal)
    (hw : ∀ j, w j ≠ ⊤ ∧ w j ≠ ⊥) :
    val_main_v9 (F := Ideal) x w b = out x w b := by
  funext i
  rw [val_main_v9_apply, val_main_v6_apply, val_main_v8_apply, val_main_v7_apply, bias_index]
  unfold out
  refine congrArg (· + b (ix1 (i 1))) (Finset.sum_congr rfl fun k _ => ?_)
  rw [straight_through_apply w _ (hw _).1 (hw _).2, lhs_index, rhs_index]
  rfl

end Cert.BinLin.Reference

end
-- ==== Proof.WeightFinite.lean ====
/-
  The precondition makes every weight entry a real number.

  The precondition is the conjunction of three tests, one per argument: every entry's absolute value is below
  the word `0x7F800000`. At the ideal instance that word is `+∞`, the absolute value of `x` is `max x (−x)`, and
  the comparison is the order of the extended reals; so a passing test says that neither `x` nor `−x` is `+∞`,
  that is, `x` is a real number. Only the weight's test is read here.
-/
import proofs.«177648_j67156108640875_2_alg».proof.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.BinLin.Finite

open Cert.Pre_finite_inputs Idealize.ShloMosaic Idealize.ShloMosaic.ValueIdx

instance : Subsingleton S_.Idx := ⟨fun a b => funext fun d => d.elim0⟩

/-- The word `0x7F800000` is `+∞`. -/
theorem ofBits_inf : Ideal.ofBits .f32 0x7F800000#32 = ⊤ := by simp [Ideal.ofBits, Ideal.ieee]

/-- An extended real whose absolute value is below `+∞` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have hlt : max x (-x) < Ideal.ofBits .f32 0x7F800000#32 := by
    by_contra hn
    have h0 : FloatOps.cmpf (F := Ideal) (φ := .f32) .olt (FloatOps.hostAbsf (F := Ideal) (φ := .f32) x)
        (FloatOps.ofBits (F := Ideal) .f32 0x7F800000#32) = 0#1 := by
      show BitVec.ofBool (decide (max x (-x) < Ideal.ofBits .f32 0x7F800000#32)) = 0#1
      rw [decide_eq_false hn]
      rfl
    rw [h0] at h
    exact absurd h (by decide)
  rw [ofBits_inf, max_lt_iff] at hlt
  constructor
  · rintro rfl
    exact lt_irrefl _ hlt.1
  · rintro rfl
    rw [EReal.neg_bot] at hlt
    exact lt_irrefl _ hlt.2

variable [Facts]

/-- Under the precondition every weight entry is a real number. -/
theorem weight_real (x : FVec Ideal S8192x2048 .f32) (w : FVec Ideal S2048x2048 .f32) (b : FVec Ideal S2048 .f32)
    (h : fn (F := Ideal) x w b = fun _ => 1#1) (j : S2048x2048.Idx) : w j ≠ ⊤ ∧ w j ≠ ⊥ := by
  have h0 := congrFun h ix0
  dsimp only [fn] at h0
  obtain ⟨h1, -⟩ := IntOp.andi_eq_one.mp h0
  obtain ⟨-, h2⟩ := IntOp.andi_eq_one.mp h1
  exact real_of_abs_lt (w j) (Host.reduce_andi_all _ _ _ _ ix0 h2 j)

end Cert.BinLin.Finite

end
-- ==== Proof.lean ====
/-
  A binarised linear layer: the kernel against its reference, on the extended reals.

  For an input `x : [8192, 2048]`, a weight `w : [2048, 2048]` and a bias `b : [2048]` both programs compute, at row
  `r` and column `c`,

      (∑ k < 2048, x[r, k] · β(w[c, k])) + b[c],        β(w) = the word 1.0 where 0 ≤ w, the word −1.0 elsewhere.

  The kernel binarises the weight on the host, once, and reshapes the bias to a row; each of its 16 grid points
  then multiplies 512 rows of the input against the whole binarised weight, both contracted along their second
  axis, adds the bias row, and writes 512 rows of the output. The 16 row blocks tile the output, so the output
  array is the formula above at every index (Proof/KernelValue.lean, over the payload of Proof/KernelPayload.lean
  and the host's two arrays of Proof/HostPrefix.lean).

  The reference forms the straight-through weight `w + (β(w) − w)` and contracts the input against it in one
  product, then adds the bias broadcast along the rows. For a real number `w` and any extended real `s`,
  `w + (s − w) = s`; at `w = ±∞` this fails, so the weight's finiteness — the one part of the precondition
  that is used (Proof/WeightFinite.lean) — is what makes the straight-through weight the binarised one
  (Proof/ReferenceValue.lean). The sums then agree term by term: no term is moved, regrouped or distributed,
  so the input and the bias may be any extended reals. The words 0.0, 1.0 and −1.0 are the same on both sides
  and are never evaluated, except that the product's zero accumulator is the number 0.

  The three frames are the generated ones; the ideal pass rewrote nothing, so the kernel's idealisation is its
  own text read on the extended reals.
-/
import proofs.«177648_j67156108640875_2_alg».proof.Defs
import proofs.«177648_j67156108640875_2_alg».proof.Proof.Gen.Kernel
import proofs.«177648_j67156108640875_2_alg».proof.Proof.Gen.Kernel.Skeleton
import proofs.«177648_j67156108640875_2_alg».proof.Proof.Gen.Kernel.Launch
import proofs.«177648_j67156108640875_2_alg».proof.Proof.Gen.Kernel.Points
import proofs.«177648_j67156108640875_2_alg».proof.Proof.Gen.Kernel.Frame
import proofs.«177648_j67156108640875_2_alg».proof.Proof.Gen.KernelIdeal
import proofs.«177648_j67156108640875_2_alg».proof.Proof.Gen.KernelIdeal.Skeleton
import proofs.«177648_j67156108640875_2_alg».proof.Proof.Gen.KernelIdeal.Launch
import proofs.«177648_j67156108640875_2_alg».proof.Proof.Gen.KernelIdeal.Points
import proofs.«177648_j67156108640875_2_alg».proof.Proof.Gen.KernelIdeal.Frame
import proofs.«177648_j67156108640875_2_alg».proof.Proof.Gen.ReferenceIdeal
import proofs.«177648_j67156108640875_2_alg».proof.Proof.Gen.KernelIdeal.Value
import proofs.«177648_j67156108640875_2_alg».proof.Proof.Gen.ReferenceIdeal.Run
import proofs.«177648_j67156108640875_2_alg».proof.Proof.Gen.ReferenceIdeal.Read
import proofs.«177648_j67156108640875_2_alg».proof.Proof.Gen.Pre_finite_inputs
import proofs.«177648_j67156108640875_2_alg».proof.Proof.KernelValue
import proofs.«177648_j67156108640875_2_alg».proof.Proof.ReferenceValue
import proofs.«177648_j67156108640875_2_alg».proof.Proof.WeightFinite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's output array and the reference's result are both
    the layer's output of those arguments: the kernel's by its 16 row blocks, the reference's because the
    precondition makes every weight entry a real number, where the straight-through weight is the binarised one. -/
theorem algebraic : Cert.algebraic_KernelIdeal_ReferenceIdeal := by
  intro m ρ m' ρ' hpre hagree
  refine ⟨fun c => Cert.BinLin.Kernel.result m c, Cert.BinLin.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2]
  exact Cert.BinLin.Reference.result_eq _ _ _ (Cert.BinLin.Finite.weight_real _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
